-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  reducesTo_S_S_d : S_.ReducesTo [] S_

variable [Facts]

def fn {F : FTy → Type} [FloatOps F] (main_arg0 : FVec F S8192x512 .f32) (main_arg1 : FVec F S8192x512 .f32) (main_arg2 : FVec F S_ .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S8192x8192 : Shape := ⟨2, ![8192, 8192]⟩
abbrev S1024x512 : Shape := ⟨2, ![1024, 512]⟩
abbrev S2048x512 : Shape := ⟨2, ![2048, 512]⟩
abbrev S1024x1 : Shape := ⟨2, ![1024, 1]⟩
abbrev S1x2048 : Shape := ⟨2, ![1, 2048]⟩
abbrev S1024x2048 : Shape := ⟨2, ![1024, 2048]⟩

abbrev nBuf : Space → Nat
  | .hbm => 14
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S1x1, .f32⟩
  | .hbm, ⟨13, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S2048x512, .f32⟩
  | .local _ .vmem, ⟨3, _⟩ => ⟨S2048x512, .f32⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S1x1, .f32⟩
  | .local _ .vmem, ⟨9, _⟩ => ⟨S1024x2048, .f32⟩
  | .local _ .vmem, ⟨10, _⟩ => ⟨S1024x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  shapeCasts_S_S1x1 : S_.ShapeCasts S1x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x2048_S1024x2048_0_0 : ∀ a, (![0, 0] : Fin 2 → Nat) a + S1024x2048.size a ≤ S1024x2048.size a
  h_S1024x2048 : 0 < S1024x2048.numel
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .f32 = 32 ∨ (Rect.block (s := S8192x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S8192x8192.size a
  hwx0_5 : ∀ i : grid0.Coords, EltTy.bits .f32 = 32 ∨ (Rect.block (s := S8192x8192) S1024x2048.size (cc0_transform_5 i) (hinb0_5 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S512x8192 : Shape := ⟨2, ![512, 8192]⟩
abbrev S8192x8192 : Shape := ⟨2, ![8192, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S512x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  transposes_S8192x512_S512x8192_1_0 : S8192x512.Transposes [1, 0] S512x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.GateSpec.lean ====
/-
  The function both programs compute, on the extended reals.

  For matrices `X`, `Y` of 8192 rows and 512 columns and a scalar `α`, entry `(i, j)` of the 8192 × 8192 result is
      σ(α − ½ · ((‖X_i‖² + ‖Y_j‖²) − 2 · ⟨X_i, Y_j⟩)),      σ(z) = 1 / (1 + e^(−z)),
  where `X_i` is row `i` of `X`, `‖·‖²` the sum of a row's squares (added onto the zero a sum starts from) and
  `⟨·,·⟩` the inner product of two rows: the squared distance of the two rows, halved, taken from `α` and passed
  through the logistic function. The grouping is exactly this one in both programs, so the equality below needs no
  law of arithmetic beyond what the logistic function IS: nothing is distributed, cancelled or reordered, and so
  nothing has to be finite.
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.DistGate

open Idealize.ShloMosaic Idealize.ShloMosaic.ValueIdx

/-- A matrix of 8192 rows and 512 columns of extended reals. -/
abbrev Mat : Type := (⟨2, ![8192, 512]⟩ : Shape).Idx → EReal

/-- The squared norm of row `r`: the zero a sum starts from, plus the sum of the row's squares. -/
def rowSq (X : Mat) (r : Fin 8192) : EReal :=
  Ideal.ofBits .f32 0x00000000#32 + ∑ k : Fin 512, X (ix2 r k) * X (ix2 r k)

/-- The inner product of row `r` of `X` with row `s` of `Y`. -/
def rowDot (X Y : Mat) (r s : Fin 8192) : EReal := ∑ k : Fin 512, X (ix2 r k) * Y (ix2 s k)

/-- One entry from its four ingredients: the scalar `a`, the two squared norms `u`, `v` and the inner product `d`.
    The words are ½ and 2. -/
def gateAt (a u v d : EReal) : EReal :=
  Ideal.logistic (a - Ideal.ofBits .f32 0x3F000000#32 * ((u + v) - Ideal.ofBits .f32 0x40000000#32 * d))

/-- The whole result as one function of the arguments. -/
def gate (X Y : Mat) (α : EReal) : (⟨2, ![8192, 8192]⟩ : Shape).Idx → EReal :=
  fun i => gateAt α (rowSq X (i 0)) (rowSq Y (i 1)) (rowDot X Y (i 0) (i 1))

/-- The same from the squared norms handed in as a column `u` and a row `v`, and the scalar as a 1 × 1 array: the
    form a tile of the result is computed in. -/
def gateFrom (X Y : Mat) (u : (⟨2, ![8192, 1]⟩ : Shape).Idx → EReal) (v : (⟨2, ![1, 8192]⟩ : Shape).Idx → EReal)
    (a : (⟨2, ![1, 1]⟩ : Shape).Idx → EReal) : (⟨2, ![8192, 8192]⟩ : Shape).Idx → EReal :=
  fun i => gateAt (a (ix2 (0 : Fin 1) (0 : Fin 1))) (u (ix2 (i 0) (0 : Fin 1))) (v (ix2 (0 : Fin 1) (i 1)))
    (rowDot X Y (i 0) (i 1))

/-- The word `0x3F800000` is the number one. -/
theorem ofBits_one_f32 : Ideal.ofBits .f32 0x3F800000#32 = 1 := IdealRules.sign_bit.ideal_onePat .f32

/-- The logistic function written out with the word for one, as a quotient of one by one plus the exponential of the
    negated argument, IS the logistic function: on every extended real, the infinities included. -/
theorem logistic_spelt (z : EReal) :
    Ideal.div (Ideal.ofBits .f32 0x3F800000#32) (Ideal.ofBits .f32 0x3F800000#32 + Ideal.exp (-z)) = Ideal.logistic z := by
  rw [ofBits_one_f32]; rfl

/-- When the column holds the squared norms of `X`'s rows, the row those of `Y`'s and the 1 × 1 array the scalar,
    the tile form is the result. -/
theorem gateFrom_eq (X Y : Mat) (u : (⟨2, ![8192, 1]⟩ : Shape).Idx → EReal) (v : (⟨2, ![1, 8192]⟩ : Shape).Idx → EReal)
    (a : (⟨2, ![1, 1]⟩ : Shape).Idx → EReal) (α : EReal)
    (hu : ∀ r : Fin 8192, u (ix2 r (0 : Fin 1)) = rowSq X r) (hv : ∀ s : Fin 8192, v (ix2 (0 : Fin 1) s) = rowSq Y s)
    (ha : a (ix2 (0 : Fin 1) (0 : Fin 1)) = α) : gateFrom X Y u v a = gate X Y α := by
  funext i
  show gateAt (a (ix2 (0 : Fin 1) (0 : Fin 1))) (u (ix2 (i 0) (0 : Fin 1))) (v (ix2 (0 : Fin 1) (i 1))) (rowDot X Y (i 0) (i 1))
    = gateAt α (rowSq X (i 0)) (rowSq Y (i 1)) (rowDot X Y (i 0) (i 1))
  rw [ha, hu (i 0), hv (i 1)]

end Cert.DistGate

end
-- ==== Proof.LibColumn.lean ====
/-
  One column broadcast over many. A `[a, 1]` array broadcast to `[a, b]` holds, at `(p, c)`, the operand's
  entry `(p, 0)`: every column of the result is the operand's one column. (The row form, `[1, b]` to `[a, b]`,
  is the library's `broadcastTo_1b_ab_apply`.) Also the host's `broadcast_in_dim` of a vector `[a]` to the column
  `[a, 1]` along axis 0, read at `(p, u)`: the vector's entry `p`.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` placed by `broadcast_in_dim` along axis 0 of the column shape `[a, 1]` reads, at `(p, u)`,
    the vector's entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

end Cert.LibColumn
-- ==== Proof.TileEntry.lean ====
/-
  One entry of a tile. The body computes a 1024 × 2048 tile of the result from a block `x0` of 1024 rows of `X`, a
  block `x1` of 2048 rows of `Y`, the 1024 squared norms `x2` of those rows of `X` as a column, the 2048 squared norms
  `x3` of those rows of `Y` as a row, and the scalar `x4` as a 1 × 1 array. Entry `(p, q)` of the tile is

      σ(x4 − ½ · ((x2_p + x3_q) − 2 · Σ_k x0_{p,k} · x1_{q,k})):

  the matrix product into a zero accumulator is the plain sum over the contracted axis (a change of float format
  is the identity on extended reals), the column is broadcast along the rows and the row along the columns.
-/
import proofs.«137172_j65060164600142_1_alg».proof.Proof.Gen.KernelIdeal.Skeleton
import proofs.«137172_j65060164600142_1_alg».proof.Proof.GateSpec
import proofs.«137172_j65060164600142_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.DistGate

/-! ## The operand entries a product entry reads -/

/-- The left operand is read in the row of the product entry … -/
theorem lhs_row (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl
/-- … at the contracted coordinate; -/
theorem lhs_col (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
/-- the right operand in the row numbered by the product entry's COLUMN (the product is with the transpose) … -/
theorem rhs_row (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl
/-- … at the contracted coordinate. -/
theorem rhs_col (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The product of a 1024 × 512 block with the transpose of a 2048 × 512 block, into a zero accumulator, at `(p, q)`:
    the inner product of row `p` of the first with row `q` of the second. -/
theorem product_apply (a : FVec Ideal S1024x512 .bf16) (b : FVec Ideal S2048x512 .bf16) (p : Fin 1024) (q : Fin 2048) :
    matmul dot_S1024x512_S2048x512_S1024x2048_1_1_0_0_n_n none a b (constant (F := Ideal) S1024x2048 .f32 0x00000000#32) (ix2 p q)
      = ∑ k : Fin 512, a (ix2 p k) * b (ix2 q k) := by
  simp only [matmul]
  rw [Ideal.matmul_constant_zero_apply,
    ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 p q)
      ((contrEquiv1 dot_S1024x512_S2048x512_S1024x2048_1_1_0_0_n_n 512 rfl rfl).symm k) = ix2 p k :=
    funext fun ax => Fin.ext (by
      match ax with
      | ⟨0, _⟩ => exact lhs_row _ _
      | ⟨1, _⟩ => exact (lhs_col _ _).trans hk)
  have er : dot_S1024x512_S2048x512_S1024x2048_1_1_0_0_n_n.rhsIdx (ix2 p q)
      ((contrEquiv1 dot_S1024x512_S2048x512_S1024x2048_1_1_0_0_n_n 512 rfl rfl).symm k) = ix2 q k :=
    funext fun ax => Fin.ext (by
      match ax with
      | ⟨0, _⟩ => exact rhs_row _ _
      | ⟨1, _⟩ => exact (rhs_col _ _).trans hk)
  rw [el, er]

/-! ## The body's result at an entry -/

/-- ENTRY `(p, q)` OF THE TILE the body stores, from the entries of its five loaded blocks. -/
theorem pay_apply (x0 : Vec Ideal S1024x512 .f32) (x1 : Vec Ideal S2048x512 .f32) (x2 : Vec Ideal S1024x1 .f32)
    (x3 : Vec Ideal S1x2048 .f32) (x4 : Vec Ideal S1x1 .f32) (p : Fin 1024) (q : Fin 2048) :
    k0_pay1 (F := Ideal) x0 x1 x2 x3 x4 (ix2 p q)
      = gateAt (x4 (ix2 (0 : Fin 1) (0 : Fin 1))) (x2 (ix2 p (0 : Fin 1))) (x3 (ix2 (0 : Fin 1) q))
          (∑ k : Fin 512, x0 (ix2 p k) * x1 (ix2 q k)) := by
  have e2 : broadcastTo S1024x2048 (shapeCast S1024x1 x2 shapeCasts_S1024x1_S1024x1) broadcasts_S1024x1_S1024x2048 (ix2 p q)
      = x2 (ix2 p (0 : Fin 1)) := by
    rw [shapeCast_self]; exact Cert.LibColumn.broadcastTo_a1_ab_apply x2 _ p q
  have e3 : broadcastTo S1024x2048 (shapeCast S1x2048 x3 shapeCasts_S1x2048_S1x2048) broadcasts_S1x2048_S1024x2048 (ix2 p q)
      = x3 (ix2 (0 : Fin 1) q) := by
    rw [shapeCast_self]; exact broadcastTo_1b_ab_apply x3 _ p q
  have e4 : matmul dot_S1024x512_S2048x512_S1024x2048_1_1_0_0_n_n none (truncf (F := Ideal) .bf16 x0 bitsLt_bf16_f32)
      (truncf (F := Ideal) .bf16 x1 bitsLt_bf16_f32) (constant (F := Ideal) S1024x2048 .f32 0x00000000#32) (ix2 p q)
      = ∑ k : Fin 512, x0 (ix2 p k) * x1 (ix2 q k) := product_apply _ _ p q
  have e5 : extractAt ![0, 0] x4 inpos_S1x1_p0_0 = x4 (ix2 (0 : Fin 1) (0 : Fin 1)) :=
    congrArg x4 (funext fun ax => Fin.ext (by match ax with | ⟨0, _⟩ => rfl | ⟨1, _⟩ => rfl))
  unfold gateAt
  rw [← e2, ← e3, ← e4, ← e5]
  rfl

end Cert.KernelIdeal.Tile

end
-- ==== Proof.HostNorms.lean ====
/-
  What the tiles are computed FROM. Before the tiled computation starts, three of its five operands are prepared
  from the arguments: the squared norms of `X`'s rows as a column `[8192, 1]`, those of `Y`'s rows as a row
  `[1, 8192]` (a column, transposed), and the scalar `α` as a 1 × 1 array. Read at an index:
      column (r, 0) = ‖X_r‖²,      row (0, s) = ‖Y_s‖²,      the 1 × 1 array's entry = α.
  A row's squared norm is the host's sum over axis 1 of the entrywise square, started from zero.
-/
import proofs.«137172_j65060164600142_1_alg».proof.Proof.Gen.KernelIdeal.Frame
import proofs.«137172_j65060164600142_1_alg».proof.Proof.GateSpec
import proofs.«137172_j65060164600142_1_alg».proof.Proof.LibColumn
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HostNorms

open Cert.KernelIdeal Cert.KernelIdeal.Gen Idealize.ShloMosaic Idealize.ShloMosaic.TcCoe Idealize.SL.Sem
open Idealize.ShloMosaic.StableHlo Idealize.ShloMosaic.ValueIdx Cert.DistGate

/-- The host's sum over axis 1 of a matrix's entrywise square, started from the zero word, at row `r`: the row's
    squared norm. -/
theorem rowSq_of_reduce (A : FVec Ideal S8192x512 .f32) (r : Fin 8192) :
    Host.reduceAdd (F := Ideal) (mulf A A) (constant (F := Ideal) S_ .f32 0x00000000#32) reducesTo_S8192x512_S8192_d1 h_S_ (ix1 r)
      = rowSq A r := by
  generalize hy : mulf A A = y
  simp only [Host.reduceAdd, Ideal.hostReduceAdd_def]
  rw [Ideal.hostReduceAdd_single reducesTo_S8192x512_S8192_d1 (by decide)]
  unfold rowSq
  refine congrArg (_ + ·) (Finset.sum_congr rfl fun k _ => ?_)
  subst hy
  exact congrArg (fun j => A j * A j) (funext fun ax => Fin.ext (by match ax with | ⟨0, _⟩ => rfl | ⟨1, _⟩ => rfl))

variable (m : (ℓ : Loc nD τ sig) → Buf (Elt Ideal) ℓ)

/-- The column the region finds: the squared norms of `X`'s rows, placed along axis 0. -/
theorem col_eq (c : Dev nD) : (V m c main_v2 : S8192x1.Idx → EReal)
    = broadcastInDim S8192x1 ![0] bcast_S8192_S8192x1_0
        (Host.reduceAdd (F := Ideal) (mulf (m ((c : Thread nD τ).loc main_arg0)) (m ((c : Thread nD τ).loc main_arg0)))
          (constant (F := Ideal) S_ .f32 0x00000000#32) reducesTo_S8192x512_S8192_d1 h_S_) := by
  dsimp only [Gen.V, Gen.hostOps0]; after_results

/-- The row the region finds: the squared norms of `Y`'s rows, placed along axis 0 and transposed. -/
theorem row_eq (c : Dev nD) : (V m c main_v6 : S1x8192.Idx → EReal)
    = transpose S1x8192 [1, 0] (broadcastInDim S8192x1 ![0] bcast_S8192_S8192x1_0
        (Host.reduceAdd (F := Ideal) (mulf (m ((c : Thread nD τ).loc main_arg1)) (m ((c : Thread nD τ).loc main_arg1)))
          (constant (F := Ideal) S_ .f32 0x00000000#32) reducesTo_S8192x512_S8192_d1 h_S_)) transposes_S8192x1_S1x8192_1_0 := by
  dsimp only [Gen.V, Gen.hostOps0]; after_results

/-- The 1 × 1 array the region finds: the scalar, reshaped. -/
theorem one_eq (c : Dev nD) : (V m c main_v7 : S1x1.Idx → EReal)
    = shapeCast S1x1 (m ((c : Thread nD τ).loc main_arg2)) shapeCasts_S_S1x1 := by
  dsimp only [Gen.V, Gen.hostOps0]; after_results; rfl

/-- COLUMN ENTRY `(r, 0)` is the squared norm of row `r` of `X`. -/
theorem col_apply (c : Dev nD) (r : Fin 8192) :
    (V m c main_v2 : S8192x1.Idx → EReal) (ix2 r (0 : Fin 1)) = rowSq (m ((c : Thread nD τ).loc main_arg0)) r := by
  rw [col_eq, Cert.LibColumn.broadcastInDim_a_a1_apply]
  exact rowSq_of_reduce _ r

/-- ROW ENTRY `(0, s)` is the squared norm of row `s` of `Y`. -/
theorem row_apply (c : Dev nD) (s : Fin 8192) :
    (V m c main_v6 : S1x8192.Idx → EReal) (ix2 (0 : Fin 1) s) = rowSq (m ((c : Thread nD τ).loc main_arg1)) s := by
  rw [row_eq, transpose_ix2_apply, Cert.LibColumn.broadcastInDim_a_a1_apply]
  exact rowSq_of_reduce _ s

/-- THE 1 × 1 ARRAY'S ENTRY is the scalar. -/
theorem one_apply (c : Dev nD) :
    (V m c main_v7 : S1x1.Idx → EReal) (ix2 (0 : Fin 1) (0 : Fin 1)) = (m ((c : Thread nD τ).loc main_arg2) : S_.Idx → EReal) ix0 := by
  rw [one_eq]
  unfold shapeCast
  exact congrArg _ (eq_ix0 _)

end Cert.KernelIdeal.HostNorms

end
-- ==== Proof.Tiles.lean ====
/-
  From tiles to the whole result. The result array is cut into 8 × 4 tiles of 1024 × 2048 entries; the grid has one
  point per tile, and the point of tile `(I, J)` is handed rows `1024·I …` of `X` and of the column of `X`'s squared
  norms, rows `2048·J …` of `Y` and columns `2048·J …` of the row of `Y`'s squared norms, and the 1 × 1 scalar. So
  entry `(p, q)` of what it writes back is entry `(1024·I + p, 2048·J + q)` of ONE function of the five arrays
  (`tiled`); the tiles cover the array (entry `(r, s)` lies in tile `(r / 1024, s / 2048)`), so the array ends
  holding that function — which, the column, the row and the scalar being what they are, is the result `gate`.
-/
import proofs.«137172_j65060164600142_1_alg».proof.Proof.Gen.KernelIdeal.Value
import proofs.«137172_j65060164600142_1_alg».proof.Proof.TileEntry
import proofs.«137172_j65060164600142_1_alg».proof.Proof.HostNorms
import Idealize.ShloMosaic.Lib.Pipeline.Value
import Idealize.ShloMosaic.Lib.Tactic

noncomputable section

open scoped BigOperators

namespace Cert.KernelIdeal.Tiles

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.DistGate

variable (m : (ℓ : Loc nD τ sig) → Buf (Elt Ideal) ℓ) (ρ : Dev nD → PrngReg)

theorem zero_offsets : (![0, 0] : Fin 2 → Nat) = fun _ => 0 := funext fun a => by fin_cases a <;> rfl

/-- The result as one function of the five arrays the tiled computation reads. -/
def tiled (c : Dev nD) : S8192x8192.Idx → EReal :=
  gateFrom (V m c main_arg0) (V m c main_arg1) (V m c main_v2) (V m c main_v6) (V m c main_v7)

/-! ## Which block of each operand a grid point is handed -/

/-- Over the 32 grid points: the blocks of `X` and of the column move with the tile's row index, those of `Y` and of
    the row with its column index, the scalar's does not move; the tile's indices stay below 8 and 4. -/
theorem block_indices : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = 0
    ∧ win0_5.index t (0 : Fin 2) ≤ 7 ∧ win0_5.index t (1 : Fin 2) ≤ 3 :=
  (by decide +kernel : ∀ t : Fin grid0.N, _)

/-- Every tile is some grid point's. -/
theorem tile_onto : ∀ (I : Fin 8) (J : Fin 4), ∃ t : Fin cfg0.N, win0_5.index t = ![I.val, J.val] :=
  (by decide +kernel : ∀ (I : Fin 8) (J : Fin 4), ∃ t : Fin grid0.N, win0_5.index t = ![I.val, J.val])

/-! ## Each operand's block, read where the tile's entry says -/

/-- The five blocks a grid point is handed, at their shapes: 1024 rows of `X`, 2048 rows of `Y`, 1024 entries of the
    column, 2048 entries of the row, the 1 × 1 scalar. -/
abbrev xBlock (c : Dev nD) (t : Fin cfg0.N) : Vec Ideal S1024x512 .f32 := iblk m c 0 t
abbrev yBlock (c : Dev nD) (t : Fin cfg0.N) : Vec Ideal S2048x512 .f32 := iblk m c 1 t
abbrev colBlock (c : Dev nD) (t : Fin cfg0.N) : Vec Ideal S1024x1 .f32 := iblk m c 2 t
abbrev rowBlock (c : Dev nD) (t : Fin cfg0.N) : Vec Ideal S1x2048 .f32 := iblk m c 3 t
abbrev oneBlock (c : Dev nD) (t : Fin cfg0.N) : Vec Ideal S1x1 .f32 := iblk m c 4 t

/-- Row `p` of the block of `X` at point `t` is row `r = 1024·I + p` of `X`. -/
theorem x_block (c : Dev nD) (t : Fin cfg0.N) (p : Fin 1024) (k : Fin 512) (r : Fin 8192)
    (hr : r.val = win0_5.index t (0 : Fin 2) * 1024 + p.val) :
    xBlock m c t (ix2 p k) = (V m c main_arg0 : S8192x512.Idx → EReal) (ix2 r k) := by
  obtain ⟨e00, e01, -⟩ := block_indices t
  unfold xBlock iblk
  rw [View.read_apply]
  show V m c main_arg0 _ = V m c main_arg0 _
  congr 1
  funext a
  apply Fin.ext
  match a with
  | ⟨0, _⟩ => show win0_0.index t (0 : Fin 2) * 1024 + 1 * p.val = r.val; rw [hr, e00]; omega
  | ⟨1, _⟩ => show win0_0.index t (1 : Fin 2) * 512 + 1 * k.val = k.val; rw [e01]; omega

/-- Row `q` of the block of `Y` at point `t` is row `s = 2048·J + q` of `Y`. -/
theorem y_block (c : Dev nD) (t : Fin cfg0.N) (q : Fin 2048) (k : Fin 512) (s : Fin 8192)
    (hs : s.val = win0_5.index t (1 : Fin 2) * 2048 + q.val) :
    yBlock m c t (ix2 q k) = (V m c main_arg1 : S8192x512.Idx → EReal) (ix2 s k) := by
  obtain ⟨-, -, e10, e11, -⟩ := block_indices t
  unfold yBlock iblk
  rw [View.read_apply]
  show V m c main_arg1 _ = V m c main_arg1 _
  congr 1
  funext a
  apply Fin.ext
  match a with
  | ⟨0, _⟩ => show win0_1.index t (0 : Fin 2) * 2048 + 1 * q.val = s.val; rw [hs, e10]; omega
  | ⟨1, _⟩ => show win0_1.index t (1 : Fin 2) * 512 + 1 * k.val = k.val; rw [e11]; omega

/-- Entry `p` of the block of the column at point `t` is its entry `r = 1024·I + p`. -/
theorem col_block (c : Dev nD) (t : Fin cfg0.N) (p : Fin 1024) (r : Fin 8192)
    (hr : r.val = win0_5.index t (0 : Fin 2) * 1024 + p.val) :
    colBlock m c t (ix2 p (0 : Fin 1)) = (V m c main_v2 : S8192x1.Idx → EReal) (ix2 r (0 : Fin 1)) := by
  obtain ⟨-, -, -, -, e20, e21, -⟩ := block_indices t
  unfold colBlock iblk
  rw [View.read_apply]
  show V m c main_v2 _ = V m c main_v2 _
  congr 1
  funext a
  apply Fin.ext
  match a with
  | ⟨0, _⟩ => show win0_2.index t (0 : Fin 2) * 1024 + 1 * p.val = r.val; rw [hr, e20]; omega
  | ⟨1, _⟩ => show win0_2.index t (1 : Fin 2) * 1 + 1 * 0 = 0; rw [e21]

/-- Entry `q` of the block of the row at point `t` is its entry `s = 2048·J + q`. -/
theorem row_block (c : Dev nD) (t : Fin cfg0.N) (q : Fin 2048) (s : Fin 8192)
    (hs : s.val = win0_5.index t (1 : Fin 2) * 2048 + q.val) :
    rowBlock m c t (ix2 (0 : Fin 1) q) = (V m c main_v6 : S1x8192.Idx → EReal) (ix2 (0 : Fin 1) s) := by
  obtain ⟨-, -, -, -, -, -, e30, e31, -⟩ := block_indices t
  unfold rowBlock iblk
  rw [View.read_apply]
  show V m c main_v6 _ = V m c main_v6 _
  congr 1
  funext a
  apply Fin.ext
  match a with
  | ⟨0, _⟩ => show win0_3.index t (0 : Fin 2) * 1 + 1 * 0 = 0; rw [e30]
  | ⟨1, _⟩ => show win0_3.index t (1 : Fin 2) * 2048 + 1 * q.val = s.val; rw [hs, e31]; omega

/-- The scalar's block at every point is the 1 × 1 array. -/
theorem one_block (c : Dev nD) (t : Fin cfg0.N) :
    oneBlock m c t (ix2 (0 : Fin 1) (0 : Fin 1)) = (V m c main_v7 : S1x1.Idx → EReal) (ix2 (0 : Fin 1) (0 : Fin 1)) := by
  obtain ⟨-, -, -, -, -, -, -, -, e40, e41, -⟩ := block_indices t
  unfold oneBlock iblk
  rw [View.read_apply]
  show V m c main_v7 _ = V m c main_v7 _
  congr 1
  funext a
  apply Fin.ext
  match a with
  | ⟨0, _⟩ => show win0_4.index t (0 : Fin 2) * 1 + 1 * 0 = 0; rw [e40]
  | ⟨1, _⟩ => show win0_4.index t (1 : Fin 2) * 1 + 1 * 0 = 0; rw [e41]

/-! ## What a grid point writes back -/

/-- Entry `(p, q)` of the tile computed at point `t` from the five blocks is entry `i` of `tiled`, when `i` is the
    entry of the array that `(p, q)` of tile `t` is. -/
theorem entry_eq (c : Dev nD) (t : Fin cfg0.N) (p : Fin 1024) (q : Fin 2048) (i : S8192x8192.Idx)
    (h0 : (i 0).val = win0_5.index t (0 : Fin 2) * 1024 + p.val) (h1 : (i 1).val = win0_5.index t (1 : Fin 2) * 2048 + q.val) :
    gateAt (oneBlock m c t (ix2 (0 : Fin 1) (0 : Fin 1))) (colBlock m c t (ix2 p (0 : Fin 1)))
        (rowBlock m c t (ix2 (0 : Fin 1) q)) (∑ k : Fin 512, xBlock m c t (ix2 p k) * yBlock m c t (ix2 q k))
      = tiled m c i := by
  rw [one_block m c t, col_block m c t p (i 0) h0, row_block m c t q (i 1) h1]
  refine congrArg _ (Finset.sum_congr rfl fun k _ => ?_)
  rw [x_block m c t p k (i 0) h0, y_block m c t q k (i 1) h1]

/-- A tile's contents `v`, written back at point `t`, are tile `t` of an array `G` as soon as every entry `(p, q)` of
    `v` is the entry of `G` that `(p, q)` of tile `t` is. -/
theorem tile_read_eq (t : Fin cfg0.N) (v : Vec Ideal S1024x2048 .f32) (G : S8192x8192.Idx → EReal)
    (h : ∀ (p : Fin 1024) (q : Fin 2048), v (ix2 p q) = G (((cfg0.win 5).blk t).view.emb (ix2 p q))) :
    (cfg0.win 5).cut (grid0.coords t) v = ((cfg0.win 5).blk t).view.read (Elt Ideal) G := by
  refine funext fun (j : S1024x2048.Idx) => ?_
  obtain ⟨p, q, rfl⟩ : ∃ (p : Fin 1024) (q : Fin 2048), j = ix2 p q := ⟨j 0, j 1, eq_ix2 j⟩
  exact h p q

/-- WHAT POINT `t` WRITES BACK is tile `t` of `tiled`. -/
theorem flushed_eq (c : Dev nD) (t : Fin cfg0.N) :
    (dats m 0 c).flushed 5 t = ((cfg0.win 5).blk t).view.read (Elt Ideal) (tiled m c) := by
  rw [flushed5]
  refine tile_read_eq t _ _ fun p q => ?_
  unfold out0_5
  rw [View.canon_unit_zero zero_offsets]
  simp only [View.ld_unit_zero (S := S1024x512) zero_offsets, View.ld_unit_zero (S := S2048x512) zero_offsets,
    View.ld_unit_zero (S := S1024x1) zero_offsets, View.ld_unit_zero (S := S1x2048) zero_offsets,
    View.ld_unit_zero (S := S1x1) zero_offsets]
  refine (Tile.pay_apply (xBlock m c t) (yBlock m c t) (colBlock m c t) (rowBlock m c t) (oneBlock m c t) p q).trans ?_
  refine entry_eq m c t p q _ ?_ ?_
  · show win0_5.index t (0 : Fin 2) * 1024 + 1 * p.val = _; omega
  · show win0_5.index t (1 : Fin 2) * 2048 + 1 * q.val = _; omega

/-! ## The tiles cover the array -/

/-- An entry is in point `t`'s tile iff each coordinate is in the tile's range on its axis. -/
theorem mem_tile (t : Fin cfg0.N) (i : S8192x8192.Idx) :
    i ∈ ((cfg0.win 5).blk t).view.set ↔ ∀ a : Fin 2, win0_5.index t a * S1024x2048.size a ≤ (i a).val
      ∧ (i a).val < win0_5.index t a * S1024x2048.size a + S1024x2048.size a := by
  show i ∈ ((View.whole main_v8).slice (win0_5.rect t)).set ↔ _
  rw [View.set_slice_whole, Rect.mem_set_unit]
  exact Iff.rfl

/-- Entry `(r, s)` lies in tile `(r / 1024, s / 2048)`, which some point writes back. -/
theorem cover (i : S8192x8192.Idx) : ∃ t : Fin cfg0.N, (cfg0.win 5).flush t = true ∧ i ∈ ((cfg0.win 5).blk t).view.set := by
  have hi0 : (i 0).val < 8192 := (i 0).isLt
  have hi1 : (i 1).val < 8192 := (i 1).isLt
  obtain ⟨t, ht⟩ := tile_onto ⟨(i 0).val / 1024, by omega⟩ ⟨(i 1).val / 2048, by omega⟩
  have q0 : win0_5.index t (0 : Fin 2) = (i 0).val / 1024 := congrFun ht 0
  have q1 : win0_5.index t (1 : Fin 2) = (i 1).val / 2048 := congrFun ht 1
  refine ⟨t, flush0_5 t, ?_⟩
  rw [mem_tile]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 2048 ≤ (i 1).val ∧ (i 1).val < win0_5.index t (1 : Fin 2) * 2048 + 2048
    omega

/-- THE ARRAY after the run is `tiled`. -/
theorem final (c : Dev nD) : (dats m 0 c).arrAt 5 cfg0.N = tiled m c :=
  (dats m 0 c).arrAt_eq_of_cover 5 (tiled m c) (fun t _ => flushed_eq m c t) cover

/-! ## The result as a function of the arguments -/

/-- With the column, the row and the 1 × 1 array read back as the squared norms and the scalar, `tiled` is `gate` of
    the three arguments. -/
theorem tiled_eq (c : Dev nD) : tiled m c
    = gate (m ((c : Thread nD τ).loc main_arg0)) (m ((c : Thread nD τ).loc main_arg1))
        ((m ((c : Thread nD τ).loc main_arg2) : S_.Idx → EReal) ix0) := by
  unfold tiled
  rw [V_main_arg0, V_main_arg1]
  exact gateFrom_eq _ _ _ _ _ _ (HostNorms.col_apply m c) (HostNorms.row_apply m c) (HostNorms.one_apply m c)

/-- THE RUN, READ: every weakly fair execution ends with the result array at `gate` of the arguments as launched, and
    the arguments unchanged. -/
theorem run : θ_run defs (onTc (τ := τ) (main (F := Ideal))) ⟨m, fun _ => 0, ρ⟩ fun r => ∀ c : Dev nD,
      r.2.mem ((c : Thread nD τ).loc main_v8)
        = gate (m ((c : Thread nD τ).loc main_arg0)) (m ((c : Thread nD τ).loc main_arg1))
            ((m ((c : Thread nD τ).loc main_arg2) : S_.Idx → EReal) ix0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (tiled_eq m c)), (h c).2⟩)
    (run_blocks m ρ)

end Cert.KernelIdeal.Tiles

end
-- ==== Proof.RefGate.lean ====
/-
  The reference computes the same function. Read one operation at a time, entry `i = (r, s)` of the reference's result
  is  1 / (1 + exp(−(α − ½ · ((‖X_r‖² + ‖Y_s‖²) − 2 · Σ_k X_{r,k} · Y_{s,k})))): the two squared norms are sums over axis 1
  of the entrywise squares, placed as a column and as a row and broadcast over the square; the inner products are the
  product of `X` with the transpose of `Y`; and the quotient of one by one plus the exponential of the negated
  argument is the logistic function, on every extended real.
-/
import proofs.«137172_j65060164600142_1_alg».proof.Proof.Gen.ReferenceIdeal.Read
import proofs.«137172_j65060164600142_1_alg».proof.Proof.GateSpec

noncomputable section

open scoped BigOperators

namespace Cert.ReferenceIdeal.RefGate

open Cert.ReferenceIdeal Cert.ReferenceIdeal.Gen Cert.ReferenceIdeal.Read Idealize.ShloMosaic Idealize.ShloMosaic.ValueIdx
open Cert.DistGate

/-- THE REFERENCE'S RESULT, as a function of its three arguments, is `gate`. -/
theorem result_eq (x0 x1 : (⟨S8192x512, .f32⟩ : BufTy).Contents (Elt Ideal)) (x2 : (⟨S_, .f32⟩ : BufTy).Contents (Elt Ideal)) :
    val_main_v23 (F := Ideal) x0 x1 x2 = gate x0 x1 (x2 ix0) := by
  funext i
  -- the rows the two sums of squares and the product run over, by coordinates
  have eX : ∀ k : Fin 512, idx_main_v1 (idx_main_v2 (idx_main_v8 i)) k = ix2 (i 0) k := fun k =>
    funext fun a => Fin.ext (by match a with | ⟨0, _⟩ => rfl | ⟨1, _⟩ => rfl)
  have eY : ∀ k : Fin 512, idx_main_v4 (idx_main_v5 (idx_main_v9 i)) k = ix2 (i 1) k := fun k =>
    funext fun a => Fin.ext (by match a with | ⟨0, _⟩ => rfl | ⟨1, _⟩ => rfl)
  have eL : ∀ k : Fin 512, lidx_main_v7 i k = ix2 (i 0) k := fun k =>
    funext fun a => Fin.ext (by match a with | ⟨0, _⟩ => rfl | ⟨1, _⟩ => rfl)
  have eR : ∀ k : Fin 512, idx_main_v6 (ridx_main_v7 i k) = ix2 (i 1) k := fun k =>
    funext fun a => Fin.ext (by match a with | ⟨0, _⟩ => rfl | ⟨1, _⟩ => rfl)
  rw [val_main_v23_apply, val_main_v22_apply, val_main_cst_4_apply, val_main_v21_apply, val_main_v20_apply,
    val_main_cst_3_apply, val_main_v19_apply, val_main_v18_apply, val_main_v17_apply, val_main_v16_apply,
    val_main_v15_apply, val_main_v14_apply, val_main_cst_2_apply, val_main_v13_apply, val_main_v10_apply,
    val_main_v8_apply, val_main_v2_apply, val_main_v1_apply, val_main_v9_apply, val_main_v5_apply, val_main_v4_apply,
    val_main_v12_apply, val_main_v11_apply, val_main_cst_1_apply, val_main_v7_apply]
  simp only [eX, eY, eL, eR, val_main_v0_apply, val_main_v3_apply, val_main_v6_apply, val_main_cst_apply,
    val_main_cst_0_apply, Ideal.hostDivf_def, Ideal.addf_def, Ideal.subf_def, Ideal.mulf_def, Ideal.hostUnary_exp_def,
    Ideal.hostNegf_def, Ideal.negf_def, Ideal.ofBits_def]
  exact logistic_spelt _

end Cert.ReferenceIdeal.RefGate

end
-- ==== Proof.lean ====
/-
  A tiled kernel for the logistic function of halved squared distances, against its plain formula.

  For matrices `X`, `Y` of 8192 rows and 512 columns and a scalar `α`, both programs produce the 8192 × 8192 array with
      entry (i, j) = σ(α − ½ · ((‖X_i‖² + ‖Y_j‖²) − 2 · ⟨X_i, Y_j⟩)),      σ(z) = 1 / (1 + e^(−z)),
  where `‖X_i‖²` is the sum of the squares of row `i` and `⟨X_i, Y_j⟩` the inner product of two rows (Proof/GateSpec.lean:
  `gate`).
  • The kernel first forms the squared norms of `X`'s rows as a column and of `Y`'s rows as a row, and the scalar as a 1 × 1
    array (Proof/HostNorms.lean); then, tile by tile over an 8 × 4 grid of 1024 × 2048 tiles, the product of a block of
    `X`'s rows with the transpose of a block of `Y`'s rows, into a zero accumulator, combined with the block of the column
    broadcast along the rows and the block of the row broadcast along the columns, and the logistic function of the
    outcome (Proof/TileEntry.lean: one entry of a tile). Each tile is the restriction of one function of the five arrays,
    and the tiles cover the result (Proof/Tiles.lean), so the result array ends holding `gate` of the arguments.
  • The reference forms the same squared norms, the whole product of `X` with the transpose of `Y`, and spells the
    logistic function out as the quotient of one by one plus the exponential of the negated argument, which on every
    extended real IS the logistic function (Proof/RefGate.lean).
  On the extended reals a change of float format is the identity and a matrix product is the plain sum over the contracted
  axis, in whatever blocks it is taken. The two programs group the arithmetic in the same way, so no law that fails at
  an infinity (distributing a factor over a sum, cancelling) is used, and the inputs' finiteness is never opened. The
  kernel's idealization rewrote no operation, so there is nothing to preserve; the three frame claims are the generated
  frame runs.
-/
import proofs.«137172_j65060164600142_1_alg».proof.Defs
import proofs.«137172_j65060164600142_1_alg».proof.Proof.Gen.Kernel
import proofs.«137172_j65060164600142_1_alg».proof.Proof.Gen.Kernel.Skeleton
import proofs.«137172_j65060164600142_1_alg».proof.Proof.Gen.Kernel.Launch
import proofs.«137172_j65060164600142_1_alg».proof.Proof.Gen.Kernel.Points
import proofs.«137172_j65060164600142_1_alg».proof.Proof.Gen.Kernel.Frame
import proofs.«137172_j65060164600142_1_alg».proof.Proof.Gen.KernelIdeal
import proofs.«137172_j65060164600142_1_alg».proof.Proof.Gen.KernelIdeal.Skeleton
import proofs.«137172_j65060164600142_1_alg».proof.Proof.Gen.KernelIdeal.Launch
import proofs.«137172_j65060164600142_1_alg».proof.Proof.Gen.KernelIdeal.Points
import proofs.«137172_j65060164600142_1_alg».proof.Proof.Gen.KernelIdeal.Frame
import proofs.«137172_j65060164600142_1_alg».proof.Proof.Gen.ReferenceIdeal
import proofs.«137172_j65060164600142_1_alg».proof.Proof.Gen.Pre_finite_inputs
import proofs.«137172_j65060164600142_1_alg».proof.Proof.Gen.KernelIdeal.Value
import proofs.«137172_j65060164600142_1_alg».proof.Proof.Gen.ReferenceIdeal.Run
import proofs.«137172_j65060164600142_1_alg».proof.Proof.Gen.ReferenceIdeal.Read
import proofs.«137172_j65060164600142_1_alg».proof.Proof.GateSpec
import proofs.«137172_j65060164600142_1_alg».proof.Proof.Tiles
import proofs.«137172_j65060164600142_1_alg».proof.Proof.RefGate
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories that agree on the three arguments, the kernel's result array ends at `gate` of
    the arguments (the tiles cover it) and the reference's at the same function (its operations, read one at a time). -/
theorem algebraic : Cert.algebraic_KernelIdeal_ReferenceIdeal := by
  intro m ρ m' ρ' _ hagree
  refine ⟨fun c => Cert.DistGate.gate (m ((c : Thread Cert.KernelIdeal.nD Cert.KernelIdeal.τ).loc Cert.KernelIdeal.main_arg0))
      (m ((c : Thread Cert.KernelIdeal.nD Cert.KernelIdeal.τ).loc Cert.KernelIdeal.main_arg1))
      ((m ((c : Thread Cert.KernelIdeal.nD Cert.KernelIdeal.τ).loc Cert.KernelIdeal.main_arg2) : Cert.KernelIdeal.S_.Idx → EReal)
        ValueIdx.ix0),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefGate.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
